-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1024x512 : Shape := ⟨2, ![1024, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S16384x512 .f32) (main_arg1 : FVec F S1024x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  main_v8
-- ==== Kernel.lean ====
abbrev S16384x512 : Shape := ⟨2, ![16384, 512]⟩
abbrev S1024x512 : Shape := ⟨2, ![1024, 512]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S2048x512 : Shape := ⟨2, ![2048, 512]⟩
abbrev S2048x1 : Shape := ⟨2, ![2048, 1]⟩
abbrev S2048x1024 : Shape := ⟨2, ![2048, 1024]⟩

abbrev nBuf : Space → Nat
  | .hbm => 13
  | .vmem => 8
  | .smem => 0
  | _ => 0

abbrev bufTy : (tb : Table) → Fin (tcTables nBuf tb) → BufTy
  | .hbm, ⟨0, _⟩ => ⟨S16384x512, .f32⟩
  | .hbm, ⟨1, _⟩ => ⟨S1024x512, .f32⟩
  | .hbm, ⟨2, _⟩ => ⟨S16384x512, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S1024x512, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S16384x512, .bf16⟩
  | .hbm, ⟨11, _⟩ => ⟨S1024x512, .bf16⟩
  | .hbm, ⟨12, _⟩ => ⟨S16384x1024, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S2048x1, .f32⟩
  | .local _ .vmem, ⟨4, _⟩ => ⟨S2048x1, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S1024x512_S1024_d1 : S1024x512.ReducesTo [1] S1024
  bcast_S1024_S1x1024_1 : S1024.BroadcastsInDim S1x1024 (![1] : Fin 1 → Fin S1x1024.rank)
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S2048x1_S2048x1024 : S2048x1.Broadcasts S2048x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .bf16 = 32 ∨ (Rect.block (s := S16384x512) S2048x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S16384x1.size a
  hwx0_2 : ∀ i : grid0.Coords, EltTy.bits .f32 = 32 ∨ (Rect.block (s := S16384x1) S2048x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S16384x1024.size a
  hwx0_4 : ∀ i : grid0.Coords, EltTy.bits .f32 = 32 ∨ (Rect.block (s := S16384x1024) S2048x1024.size (cc0_transform_4 i) (hinb0_4 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v6) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x512 : Shape := ⟨2, ![16384, 512]⟩
abbrev S1024x512 : Shape := ⟨2, ![1024, 512]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩

abbrev nBuf : Space → Nat
  | .hbm => 22
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S1024x512, .f32⟩
  | .hbm, ⟨2, _⟩ => ⟨S16384x512, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S1024x512, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S1024x512_S1024_d1 : S1024x512.ReducesTo [1] S1024
  bcast_S1024_S1x1024_1 : S1024.BroadcastsInDim S1x1024 (![1] : Fin 1 → Fin S1x1024.rank)
  bcast_S16384x1_S16384x1024_0_1 : S16384x1.BroadcastsInDim S16384x1024 (![0, 1] : Fin 2 → Fin S16384x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  dot_S16384x512_S1024x512_S16384x1024_1_1_0_0_n_n_wf : DotDims.WF S16384x512 S1024x512 S16384x1024 [1] [1] [0] [0] [] []

variable [Facts₀]

def dot_S16384x512_S1024x512_S16384x1024_1_1_0_0_n_n : DotDims S16384x512 S1024x512 S16384x1024 where
  lhsContracting := [1]
  rhsContracting := [1]
  lhsNonContracting := [0]
  rhsNonContracting := [0]
  lhsBatch := []
  rhsBatch := []
  wf := dot_S16384x512_S1024x512_S16384x1024_1_1_0_0_n_n_wf

class Facts : Prop extends Facts₀ where

variable [Facts]
-- ==== Proof.Gaussian.lean ====
/-
  The function both programs compute, index by index, on the extended reals.

  For a point x_p (row p of a 16384 × 512 array) and a centre c_q (row q of a 1024 × 512 array) the squared distance is
  expanded as ‖x_p‖² + ‖c_q‖² − 2·⟨x_p, c_q⟩, and the result at (p, q) is the exponential of minus that number.  The two
  squared norms enter as a column a (16384 × 1) and a row b (1 × 1024) that are left abstract here: both programs compute
  them by the same chain of operations, so nothing about them is ever needed beyond their being the same arrays.  The two
  scalar factors are kept as the binary words the programs carry (the words of −1 and of 2): the same word stands on both
  sides, so its value is never asked for.
-/
import Idealize.ShloMosaic.PureOps.Ideal
import Idealize.ShloMosaic.Lib.ValueIdx

noncomputable section

open scoped BigOperators

namespace Cert.Gaussian

open Idealize.ShloMosaic Idealize.ShloMosaic.ValueIdx

/-- exp(−(a_p + b_q − 2·Σₖ x_{p,k}·c_{q,k})) at the index (p, q): the inner product runs over the 512 shared coordinates. -/
def gauss (a : (⟨2, ![16384, 1]⟩ : Shape).Idx → EReal) (b : (⟨2, ![1, 1024]⟩ : Shape).Idx → EReal)
    (x : (⟨2, ![16384, 512]⟩ : Shape).Idx → EReal) (c : (⟨2, ![1024, 512]⟩ : Shape).Idx → EReal) :
    (⟨2, ![16384, 1024]⟩ : Shape).Idx → EReal := fun i =>
  Ideal.exp (Ideal.ofBits .f32 0xBF800000#32 *
    ((a (ix2 (n0 := 16384) (n1 := 1) (i 0) 0) + b (ix2 (n0 := 1) (n1 := 1024) 0 (i 1)))
      - Ideal.ofBits .f32 0x40000000#32 * ∑ k : Fin 512, x (ix2 (n0 := 16384) (n1 := 512) (i 0) k) * c (ix2 (n0 := 1024) (n1 := 512) (i 1) k)))

/-- The same at an index given by its two coordinates. -/
theorem gauss_apply (a : (⟨2, ![16384, 1]⟩ : Shape).Idx → EReal) (b : (⟨2, ![1, 1024]⟩ : Shape).Idx → EReal)
    (x : (⟨2, ![16384, 512]⟩ : Shape).Idx → EReal) (c : (⟨2, ![1024, 512]⟩ : Shape).Idx → EReal) (p : Fin 16384) (q : Fin 1024) :
    gauss a b x c (ix2 p q) = Ideal.exp (Ideal.ofBits .f32 0xBF800000#32 *
      ((a (ix2 p 0) + b (ix2 0 q)) - Ideal.ofBits .f32 0x40000000#32 * ∑ k : Fin 512, x (ix2 p k) * c (ix2 q k))) := rfl

end Cert.Gaussian

end
-- ==== Proof.TileValue.lean ====
/-
  What one grid point's body stores, read at an index of its 2048 × 1024 tile.

  The body holds a 2048 × 512 block of points, the whole 1024 × 512 array of centres, a 2048 × 1 column and a 1 × 1024 row.
  Its one store is exp(−(column_p + row_q − 2·Σₖ points_{p,k}·centres_{q,k})) at (p, q): the matrix product contracts the
  second axis of both operands and accumulates into zero, so it is the plain sum of 512 products; the column is repeated
  along the tile's second axis and the row along its first.
-/
import proofs.«119081_j65481071401981_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-! ## The product of a block of points with the centres, transposed -/

theorem lhs_row (i : S2048x1024.Idx) (r : dot_S2048x512_S1024x512_S2048x1024_1_1_0_0_n_n.contr.Idx) :
    (dot_S2048x512_S1024x512_S2048x1024_1_1_0_0_n_n.lhsIdx i r 0).val = (i 0).val := by
  unfold DotDims.lhsIdx
  rw [dif_neg (show ¬(0 : Fin S2048x512.rank) ∈ dot_S2048x512_S1024x512_S2048x1024_1_1_0_0_n_n.lhsBatch by decide), dif_pos (show (0 : Fin S2048x512.rank) ∈ dot_S2048x512_S1024x512_S2048x1024_1_1_0_0_n_n.lhsNonContracting by decide)]
  rfl
theorem lhs_contr (i : S2048x1024.Idx) (r : dot_S2048x512_S1024x512_S2048x1024_1_1_0_0_n_n.contr.Idx) :
    (dot_S2048x512_S1024x512_S2048x1024_1_1_0_0_n_n.lhsIdx i r 1).val = (r ⟨0, by decide⟩).val :=
  dot_S2048x512_S1024x512_S2048x1024_1_1_0_0_n_n.lhsIdx_val_of_single rfl i r
theorem rhs_row (i : S2048x1024.Idx) (r : dot_S2048x512_S1024x512_S2048x1024_1_1_0_0_n_n.contr.Idx) :
    (dot_S2048x512_S1024x512_S2048x1024_1_1_0_0_n_n.rhsIdx i r 0).val = (i 1).val := by
  unfold DotDims.rhsIdx
  rw [dif_neg (show ¬(0 : Fin S1024x512.rank) ∈ dot_S2048x512_S1024x512_S2048x1024_1_1_0_0_n_n.rhsBatch by decide), dif_pos (show (0 : Fin S1024x512.rank) ∈ dot_S2048x512_S1024x512_S2048x1024_1_1_0_0_n_n.rhsNonContracting by decide)]
  rfl
theorem rhs_contr (i : S2048x1024.Idx) (r : dot_S2048x512_S1024x512_S2048x1024_1_1_0_0_n_n.contr.Idx) :
    (dot_S2048x512_S1024x512_S2048x1024_1_1_0_0_n_n.rhsIdx i r 1).val = (r ⟨0, by decide⟩).val :=
  dot_S2048x512_S1024x512_S2048x1024_1_1_0_0_n_n.rhsIdx_val_of_single rfl i r

/-- The product accumulated into zero, at (p, q): Σₖ x_{p,k}·c_{q,k} — row p of the block against row q of the centres. -/
theorem cross_apply (x : FVec Ideal S2048x512 .bf16) (c : FVec Ideal S1024x512 .bf16) (p : Fin 2048) (q : Fin 1024) :
    matmul dot_S2048x512_S1024x512_S2048x1024_1_1_0_0_n_n none x c (constant (F := Ideal) S2048x1024 .f32 0x00000000#32) (ix2 p q)
      = ∑ k : Fin 512, x (ix2 p k) * c (ix2 q k) := by
  simp only [matmul]
  rw [Ideal.matmul_constant_zero_apply, ← Equiv.sum_comp (contrEquiv1 dot_S2048x512_S1024x512_S2048x1024_1_1_0_0_n_n 512 rfl rfl).symm]
  refine Finset.sum_congr rfl fun k _ => ?_
  have hk := contrEquiv1_symm_val dot_S2048x512_S1024x512_S2048x1024_1_1_0_0_n_n 512 rfl rfl k
  have el : dot_S2048x512_S1024x512_S2048x1024_1_1_0_0_n_n.lhsIdx (ix2 p q) ((contrEquiv1 dot_S2048x512_S1024x512_S2048x1024_1_1_0_0_n_n 512 rfl rfl).symm k) = ix2 p k := funext fun a => Fin.ext (by
    match a with
    | ⟨0, _⟩ => exact lhs_row _ _
    | ⟨1, _⟩ => exact (lhs_contr _ _).trans hk)
  have er : dot_S2048x512_S1024x512_S2048x1024_1_1_0_0_n_n.rhsIdx (ix2 p q) ((contrEquiv1 dot_S2048x512_S1024x512_S2048x1024_1_1_0_0_n_n 512 rfl rfl).symm k) = ix2 q k := funext fun a => Fin.ext (by
    match a with
    | ⟨0, _⟩ => exact rhs_row _ _
    | ⟨1, _⟩ => exact (rhs_contr _ _).trans hk)
  rw [el, er]

/-! ## The column and the row, repeated over the tile -/

/-- A 2048 × 1 column repeated along the second axis reads its entry of row p. -/
theorem column_apply (a : FVec Ideal S2048x1 .f32) (h : S2048x1.Broadcasts S2048x1024) (p : Fin 2048) (q : Fin 1024) :
    broadcastTo S2048x1024 a h (ix2 p q) = a (ix2 p 0) :=
  broadcastTo_apply a h (ix2 p q) (ix2 p 0) (fun d => match d with
    | ⟨0, _⟩ => by show p.val = if (2048 : Nat) = 1 then 0 else p.val; rw [if_neg (by decide)]
    | ⟨1, _⟩ => by show 0 = if (1 : Nat) = 1 then 0 else q.val; rw [if_pos rfl])

/-- A 1 × 1024 row repeated along the first axis reads its entry of column q. -/
theorem row_apply (b : FVec Ideal S1x1024 .f32) (h : S1x1024.Broadcasts S2048x1024) (p : Fin 2048) (q : Fin 1024) :
    broadcastTo S2048x1024 b h (ix2 p q) = b (ix2 0 q) :=
  broadcastTo_apply b h (ix2 p q) (ix2 0 q) (fun d => match d with
    | ⟨0, _⟩ => by show 0 = if (1 : Nat) = 1 then 0 else p.val; rw [if_pos rfl]
    | ⟨1, _⟩ => by show q.val = if (1024 : Nat) = 1 then 0 else q.val; rw [if_neg (by decide)])

/-! ## The stored value -/

/-- The body's store at (p, q) of the tile. -/
theorem stored_apply (x : FVec Ideal S2048x512 .bf16) (c : FVec Ideal S1024x512 .bf16) (a : FVec Ideal S2048x1 .f32)
    (b : FVec Ideal S1x1024 .f32) (p : Fin 2048) (q : Fin 1024) :
    k0_pay1 (F := Ideal) x c a b (ix2 p q) = Ideal.exp (Ideal.ofBits .f32 0xBF800000#32 *
      ((a (ix2 p 0) + b (ix2 0 q)) - Ideal.ofBits .f32 0x40000000#32 * ∑ k : Fin 512, x (ix2 p k) * c (ix2 q k))) := by
  unfold k0_pay1
  simp only [shapeCast_self]
  show Ideal.exp (Ideal.ofBits .f32 0xBF800000#32 * ((broadcastTo S2048x1024 a _ (ix2 p q) + broadcastTo S2048x1024 b _ (ix2 p q))
    - Ideal.ofBits .f32 0x40000000#32 * matmul dot_S2048x512_S1024x512_S2048x1024_1_1_0_0_n_n none x c (constant (F := Ideal) S2048x1024 .f32 0x00000000#32) (ix2 p q))) = _
  rw [column_apply, row_apply, cross_apply]

end Cert.KernelIdeal.Tile

end
-- ==== Proof.Entry.lean ====
/-
  What the four operand arrays of the grid hold when it is entered.

  Before the grid runs, the program squares the points entry by entry, sums each row and keeps the sums as a 16384 × 1
  column; does the same for the centres and keeps the sums as a 1 × 1024 row; and changes the float format of both
  arguments.  On the extended reals a change of format is the identity, so the grid finds the points and the centres
  themselves, and beside them the column and the row of squared norms.  The two norm arrays are named here as functions of
  an argument array and never opened: the other program builds them by the same operations.
-/
import proofs.«119081_j65481071401981_2_alg».proof.Proof.Gen.KernelIdeal.Frame
import Idealize.ShloMosaic.Lib.StableHlo.Run
import Idealize.ShloMosaic.PureOps.Ideal

noncomputable section

namespace Cert.KernelIdeal.Entry

open Cert.KernelIdeal Cert.KernelIdeal.Gen Idealize.ShloMosaic Idealize.ShloMosaic.TcCoe Idealize.SL.Sem Idealize.ShloMosaic.StableHlo

/-- The squared norms of the rows of a 16384 × 512 array, as a 16384 × 1 column: each row of the entrywise square summed
    from zero. -/
def normColumn (x : FVec Ideal S16384x512 .f32) : FVec Ideal S16384x1 .f32 :=
  broadcastInDim S16384x1 ![0] bcast_S16384_S16384x1_0
    (Host.reduceAdd (F := Ideal) (mulf x x) (constant (F := Ideal) S_ .f32 0x00000000#32) reducesTo_S16384x512_S16384_d1 h_S_)

/-- The squared norms of the rows of a 1024 × 512 array, as a 1 × 1024 row. -/
def normRow (y : FVec Ideal S1024x512 .f32) : FVec Ideal S1x1024 .f32 :=
  broadcastInDim S1x1024 ![1] bcast_S1024_S1x1024_1
    (Host.reduceAdd (F := Ideal) (mulf y y) (constant (F := Ideal) S_ .f32 0x00000000#32) reducesTo_S1024x512_S1024_d1 h_S_)

variable (m : (ℓ : Loc nD τ sig) → Buf (Elt Ideal) ℓ)

/-- The first operand is the array of points: its format changed, its entries the same extended reals. -/
theorem points_entry (c : Dev nD) :
    (V m c main_v6 : S16384x512.Idx → EReal) = (m ((c : Thread nD τ).loc main_arg0) : S16384x512.Idx → EReal) := by
  dsimp only [V, hostOps0]; after_results; rfl

/-- The second operand is the array of centres, likewise. -/
theorem centres_entry (c : Dev nD) :
    (V m c main_v7 : S1024x512.Idx → EReal) = (m ((c : Thread nD τ).loc main_arg1) : S1024x512.Idx → EReal) := by
  dsimp only [V, hostOps0]; after_results; rfl

/-- The third operand is the column of the points' squared norms. -/
theorem column_entry (c : Dev nD) :
    (V m c main_v2 : S16384x1.Idx → EReal) = normColumn (m ((c : Thread nD τ).loc main_arg0)) := by
  dsimp only [V, hostOps0]; after_results; rfl

/-- The fourth operand is the row of the centres' squared norms. -/
theorem row_entry (c : Dev nD) :
    (V m c main_v5 : S1x1024.Idx → EReal) = normRow (m ((c : Thread nD τ).loc main_arg1)) := by
  dsimp only [V, hostOps0]; after_results; rfl

end Cert.KernelIdeal.Entry

end
-- ==== Proof.ArrayValue.lean ====
/-
  The kernel's result array as one function of its arguments.

  The grid has 8 points.  Point t holds rows 2048·t … 2048·t + 2047 of the points and of the column of squared norms, the
  whole array of centres and the whole row of squared norms, and writes back rows 2048·t … 2048·t + 2047 of the result.
  What it writes at row p, column q of its tile is the Gaussian of Gaussian.lean at row 2048·t + p, column q of the whole
  arrays (TileValue.lean reads the body's store at an index); the 8 tiles cover all 16384 rows (row r lies in tile r / 2048),
  so the result array ends holding that function everywhere.
-/
import proofs.«119081_j65481071401981_2_alg».proof.Proof.Gen.KernelIdeal.Value
import proofs.«119081_j65481071401981_2_alg».proof.Proof.Gaussian
import proofs.«119081_j65481071401981_2_alg».proof.Proof.TileValue
import proofs.«119081_j65481071401981_2_alg».proof.Proof.Entry
import Idealize.ShloMosaic.Lib.Pipeline.Value
import Idealize.ShloMosaic.Lib.ValueIdx

noncomputable section

open scoped BigOperators

namespace Cert.KernelIdeal.Whole

open Cert.KernelIdeal Cert.KernelIdeal.Gen Cert.KernelIdeal.Value Cert.Gaussian
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Which block of its array each operand holds at grid point t: the points, the norm column and the result move down one
    block of rows per point; the centres and the norm row stay whole. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The operand blocks at a point, as entries of the whole arrays -/

/-- Row p of the points' block at point t is row 2048·t + p of the points. -/
theorem points_block (c : Dev nD) (t : Fin cfg0.N) (p : Fin 2048) (k : Fin 512) (P : Fin 16384) (hP : P.val = t.val * 2048 + p.val) :
    (iblk m c 0 t : S2048x512.Idx → EReal) (ix2 p k) = (V m c main_v6 : S16384x512.Idx → EReal) (ix2 P k) := by
  obtain ⟨e0, e1, -⟩ := block_indices t
  show (V m c main_v6 : S16384x512.Idx → EReal) (((cfg0.win 0).blk t).view.emb (ix2 p k)) = _
  refine congrArg (V m c main_v6 : S16384x512.Idx → EReal) (funext fun a => Fin.ext ?_)
  match a with
  | ⟨0, _⟩ => show win0_0.index t (0 : Fin 2) * 2048 + 1 * p.val = P.val; omega
  | ⟨1, _⟩ => show win0_0.index t (1 : Fin 2) * 512 + 1 * k.val = k.val; omega

/-- The centres' block at any point is the whole array of centres. -/
theorem centres_block (c : Dev nD) (t : Fin cfg0.N) (q : Fin 1024) (k : Fin 512) :
    (iblk m c 1 t : S1024x512.Idx → EReal) (ix2 q k) = (V m c main_v7 : S1024x512.Idx → EReal) (ix2 q k) := by
  obtain ⟨-, -, e0, e1, -⟩ := block_indices t
  show (V m c main_v7 : S1024x512.Idx → EReal) (((cfg0.win 1).blk t).view.emb (ix2 q k)) = _
  refine congrArg (V m c main_v7 : S1024x512.Idx → EReal) (funext fun a => Fin.ext ?_)
  match a with
  | ⟨0, _⟩ => show win0_1.index t (0 : Fin 2) * 1024 + 1 * q.val = q.val; omega
  | ⟨1, _⟩ => show win0_1.index t (1 : Fin 2) * 512 + 1 * k.val = k.val; omega

/-- Entry p of the norm column's block at point t is entry 2048·t + p of the column. -/
theorem column_block (c : Dev nD) (t : Fin cfg0.N) (p : Fin 2048) (P : Fin 16384) (hP : P.val = t.val * 2048 + p.val) :
    (iblk m c 2 t : S2048x1.Idx → EReal) (ix2 p 0) = (V m c main_v2 : S16384x1.Idx → EReal) (ix2 P 0) := by
  obtain ⟨-, -, -, -, e0, e1, -⟩ := block_indices t
  show (V m c main_v2 : S16384x1.Idx → EReal) (((cfg0.win 2).blk t).view.emb (ix2 p 0)) = _
  refine congrArg (V m c main_v2 : S16384x1.Idx → EReal) (funext fun a => Fin.ext ?_)
  match a with
  | ⟨0, _⟩ => show win0_2.index t (0 : Fin 2) * 2048 + 1 * p.val = P.val; omega
  | ⟨1, _⟩ => show win0_2.index t (1 : Fin 2) * 1 + 1 * 0 = 0; omega

/-- The norm row's block at any point is the whole row. -/
theorem row_block (c : Dev nD) (t : Fin cfg0.N) (q : Fin 1024) :
    (iblk m c 3 t : S1x1024.Idx → EReal) (ix2 0 q) = (V m c main_v5 : S1x1024.Idx → EReal) (ix2 0 q) := by
  obtain ⟨-, -, -, -, -, -, e0, e1, -⟩ := block_indices t
  show (V m c main_v5 : S1x1024.Idx → EReal) (((cfg0.win 3).blk t).view.emb (ix2 0 q)) = _
  refine congrArg (V m c main_v5 : S1x1024.Idx → EReal) (funext fun a => Fin.ext ?_)
  match a with
  | ⟨0, _⟩ => show win0_3.index t (0 : Fin 2) * 1 + 1 * 0 = 0; omega
  | ⟨1, _⟩ => show win0_3.index t (1 : Fin 2) * 1024 + 1 * q.val = q.val; omega

/-! ## A tile of the Gaussian -/

/-- If the four blocks a body holds are the stated rows of four whole arrays, its store at (p, q) is the Gaussian of the whole
    arrays at (P, q), P the row of the whole arrays that row p of the blocks is. -/
theorem tile_eq (x0 : FVec Ideal S2048x512 .bf16) (x1 : FVec Ideal S1024x512 .bf16) (x2 : FVec Ideal S2048x1 .f32) (x3 : FVec Ideal S1x1024 .f32)
    (A : (⟨2, ![16384, 1]⟩ : Shape).Idx → EReal) (B : (⟨2, ![1, 1024]⟩ : Shape).Idx → EReal)
    (X : (⟨2, ![16384, 512]⟩ : Shape).Idx → EReal) (C : (⟨2, ![1024, 512]⟩ : Shape).Idx → EReal)
    (p : Fin 2048) (q : Fin 1024) (P : Fin 16384)
    (h0 : ∀ k : Fin 512, x0 (ix2 p k) = X (ix2 P k)) (h1 : ∀ k : Fin 512, x1 (ix2 q k) = C (ix2 q k))
    (h2 : x2 (ix2 p 0) = A (ix2 P 0)) (h3 : x3 (ix2 0 q) = B (ix2 0 q)) :
    k0_pay1 (F := Ideal) x0 x1 x2 x3 (ix2 p q) = gauss A B X C (ix2 P q) := by
  rw [Tile.stored_apply, gauss_apply, h2, h3]
  simp only [h0, h1]

/-! ## What each point writes back, and the whole array -/

set_option maxRecDepth 65536 in
/-- Point t writes back block t of the Gaussian of the four operand arrays as the grid finds them. -/
theorem flushed_eq (c : Dev nD) (t : Fin cfg0.N) :
    (dats m 0 c).flushed 4 t = ((cfg0.win 4).blk t).view.read (Elt Ideal)
      (gauss (V m c main_v2) (V m c main_v5) (V m c main_v6) (V m c main_v7)) := by
  rw [flushed4]
  unfold out0_4
  rw [View.canon_unit_zero zero_offsets]
  simp only [View.ld_unit_zero (S := S2048x512) zero_offsets, View.ld_unit_zero (S := S1024x512) zero_offsets,
    View.ld_unit_zero (S := S2048x1) zero_offsets, View.ld_unit_zero (S := S1x1024) zero_offsets]
  obtain ⟨-, -, -, -, -, -, -, -, e0, e1⟩ := block_indices t
  have ht : t.val < 8 := by have h := t.isLt; have hN : cfg0.N = 8 := N_0; omega
  refine funext fun (j : S2048x1024.Idx) => ?_
  obtain ⟨p, q, rfl⟩ : ∃ (p : Fin 2048) (q : Fin 1024), j = ix2 p q := ⟨j 0, j 1, eq_ix2 j⟩
  have hemb : ((cfg0.win 4).blk t).view.emb (ix2 p q) = ix2 (n0 := 16384) (n1 := 1024) ⟨t.val * 2048 + p.val, by omega⟩ q := by
    funext a; apply Fin.ext
    match a with
    | ⟨0, _⟩ => show win0_4.index t (0 : Fin 2) * 2048 + 1 * p.val = t.val * 2048 + p.val; omega
    | ⟨1, _⟩ => show win0_4.index t (1 : Fin 2) * 1024 + 1 * q.val = q.val; omega
  show k0_pay1 (F := Ideal) (iblk m c 0 t) (iblk m c 1 t) (iblk m c 2 t) (iblk m c 3 t) (ix2 p q)
    = gauss (V m c main_v2) (V m c main_v5) (V m c main_v6) (V m c main_v7) (((cfg0.win 4).blk t).view.emb (ix2 p q))
  rw [hemb]
  exact tile_eq (iblk m c 0 t) (iblk m c 1 t) (iblk m c 2 t) (iblk m c 3 t)
    (V m c main_v2) (V m c main_v5) (V m c main_v6) (V m c main_v7) p q ⟨t.val * 2048 + p.val, by omega⟩
    (fun k => points_block m c t p k _ rfl) (fun k => centres_block m c t q k)
    (column_block m c t p _ rfl) (row_block m c t q)

/-- An index of the result array is in point t's block iff each coordinate is in the block's range on its axis. -/
theorem mem_block (t : Fin cfg0.N) (i : S16384x1024.Idx) :
    i ∈ ((cfg0.win 4).blk t).view.set ↔ ∀ a : Fin 2, win0_4.index t a * S2048x1024.size a ≤ (i a).val ∧ (i a).val < win0_4.index t a * S2048x1024.size a + S2048x1024.size a := by
  show i ∈ ((View.whole main_v8).slice (win0_4.rect t)).set ↔ _
  rw [View.set_slice_whole, Rect.mem_set_unit]
  exact Iff.rfl

/-- Every index of the result lies in some point's block: row r in the block of point r / 2048. -/
theorem covered (i : S16384x1024.Idx) :
    ∃ t : Fin cfg0.N, (cfg0.win 4).flush t = true ∧ i ∈ ((cfg0.win 4).blk t).view.set := by
  have hN : cfg0.N = 8 := N_0
  have hi0 : (i 0).val < 16384 := (i 0).isLt
  have hi1 : (i 1).val < 1024 := (i 1).isLt
  obtain ⟨t, ht⟩ : ∃ t : Fin cfg0.N, t.val = (i 0).val / 2048 := ⟨⟨(i 0).val / 2048, by rw [hN]; omega⟩, rfl⟩
  obtain ⟨-, -, -, -, -, -, -, -, e0, e1⟩ := block_indices t
  refine ⟨t, flush0_4 t, ?_⟩
  rw [mem_block]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 1024 ≤ (i 1).val ∧ (i 1).val < win0_4.index t (1 : Fin 2) * 1024 + 1024; omega

/-- After the grid has run, the result array is the Gaussian of the two arguments and their squared norms. -/
theorem final (c : Dev nD) : (dats m 0 c).arrAt 4 cfg0.N
    = gauss (Entry.normColumn (m ((c : Thread nD τ).loc main_arg0))) (Entry.normRow (m ((c : Thread nD τ).loc main_arg1)))
        (m ((c : Thread nD τ).loc main_arg0)) (m ((c : Thread nD τ).loc main_arg1)) := by
  rw [(dats m 0 c).arrAt_eq_of_cover 4 (gauss (V m c main_v2) (V m c main_v5) (V m c main_v6) (V m c main_v7))
    (fun t _ => flushed_eq m c t) covered]
  rw [Entry.column_entry, Entry.row_entry, Entry.points_entry, Entry.centres_entry]

/-- The run, read: the result array at the Gaussian, the two arguments unchanged. -/
theorem run : θ_run defs (onTc (τ := τ) (main (F := Ideal))) ⟨m, fun _ => 0, ρ⟩ fun r => ∀ c : Dev nD,
      r.2.mem ((c : Thread nD τ).loc main_v8)
        = gauss (Entry.normColumn (m ((c : Thread nD τ).loc main_arg0))) (Entry.normRow (m ((c : Thread nD τ).loc main_arg1)))
            (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Whole

end
-- ==== Proof.RefValue.lean ====
/-
  The reference's result is the Gaussian of the expanded squared distance.

  Read one operation at a time, the reference's last stage at (p, q) is exp of (−1)·((column_p + row_q) − 2·Σₖ x_{p,k}·y_{q,k}):
  its column and row of squared norms are its own stages, repeated over the 16384 × 1024 result, and its matrix product
  contracts the second axis of both arguments.  So it is the function of Gaussian.lean at those two stages and the two
  arguments; no law of arithmetic is used, only the reading of each operation at an index.
-/
import proofs.«119081_j65481071401981_2_alg».proof.Proof.Gen.ReferenceIdeal.Read
import proofs.«119081_j65481071401981_2_alg».proof.Proof.Gaussian

noncomputable section

open scoped BigOperators

namespace Cert.ReferenceIdeal.Dist

open Cert.ReferenceIdeal Cert.ReferenceIdeal.Gen Cert.ReferenceIdeal.Read Cert.Gaussian
open Idealize.ShloMosaic Idealize.ShloMosaic.ValueIdx

/-- The reference's result array, as a function of its two arguments, is `gauss` of its squared-norm column and row. -/
theorem result_eq (x : FVec Ideal S16384x512 .f32) (y : FVec Ideal S1024x512 .f32) :
    val_main_v15 (F := Ideal) x y = gauss (val_main_v2 (F := Ideal) x) (val_main_v5 (F := Ideal) y) x y := by
  funext i
  obtain ⟨p, q, rfl⟩ : ∃ (p : Fin 16384) (q : Fin 1024), i = ix2 p q := ⟨i 0, i 1, eq_ix2 i⟩
  have ecol : idx_main_v7 (ix2 p q) = ix2 p 0 :=
    funext fun a => Fin.ext (by match a with | ⟨0, _⟩ => rfl | ⟨1, _⟩ => rfl)
  have erow : idx_main_v8 (ix2 p q) = ix2 0 q :=
    funext fun a => Fin.ext (by match a with | ⟨0, _⟩ => rfl | ⟨1, _⟩ => rfl)
  have el : ∀ k : Fin 512, lidx_main_v6 (ix2 p q) k = ix2 p k := fun k =>
    funext fun a => Fin.ext (by match a with | ⟨0, _⟩ => rfl | ⟨1, _⟩ => rfl)
  have er : ∀ k : Fin 512, ridx_main_v6 (ix2 p q) k = ix2 q k := fun k =>
    funext fun a => Fin.ext (by match a with | ⟨0, _⟩ => rfl | ⟨1, _⟩ => rfl)
  rw [gauss_apply, val_main_v15_apply, val_main_v14_apply, val_main_v13_apply, val_main_cst_2_apply, val_main_v12_apply,
    val_main_v9_apply, val_main_v7_apply, val_main_v8_apply, val_main_v11_apply, val_main_v10_apply, val_main_cst_1_apply,
    val_main_v6_apply]
  simp only [ecol, erow, el, er, Ideal.hostUnary_exp_def, Ideal.mulf_def, Ideal.subf_def, Ideal.addf_def, Ideal.ofBits_def]

end Cert.ReferenceIdeal.Dist

end
-- ==== Proof.lean ====
/-
  A radial-basis layer: for 16384 points and 1024 centres in dimension 512 the result at (p, q) is
  exp(−‖x_p − c_q‖²), with the squared distance expanded as ‖x_p‖² + ‖c_q‖² − 2·⟨x_p, c_q⟩.

  Both programs form the two arrays of squared norms by the same operations, so these are one column a and one row b.
  The reference then takes the inner products as one matrix product of the two arguments, contracting their second axes,
  and applies the exponential to (−1)·((a_p + b_q) − 2·⟨x_p, c_q⟩) over the whole 16384 × 1024 array.  The kernel changes
  the arguments' float format (on the extended reals: nothing), cuts the points, the column and the result into 8 blocks of
  2048 rows, and in each block forms the same expression, its matrix product accumulated into zero.  On the extended reals
  both inner products are the same sum of 512 products, so the two results are the same function index by index
  (Gaussian.lean); no law of arithmetic beyond 0 + s = s is used, and the finiteness of the inputs is never needed.

  Proof/Gaussian.lean states the function; Proof/TileValue.lean reads the body's store at an index; Proof/Entry.lean says
  what the grid's operand arrays hold; Proof/ArrayValue.lean puts the 8 blocks together; Proof/RefValue.lean reads the
  reference.  Here the squared-norm arrays of the two programs are identified and the claims assembled.
-/
import proofs.«119081_j65481071401981_2_alg».proof.Defs
import proofs.«119081_j65481071401981_2_alg».proof.Proof.Gen.Kernel
import proofs.«119081_j65481071401981_2_alg».proof.Proof.Gen.Kernel.Skeleton
import proofs.«119081_j65481071401981_2_alg».proof.Proof.Gen.Kernel.Launch
import proofs.«119081_j65481071401981_2_alg».proof.Proof.Gen.Kernel.Points
import proofs.«119081_j65481071401981_2_alg».proof.Proof.Gen.Kernel.Frame
import proofs.«119081_j65481071401981_2_alg».proof.Proof.Gen.KernelIdeal
import proofs.«119081_j65481071401981_2_alg».proof.Proof.Gen.KernelIdeal.Skeleton
import proofs.«119081_j65481071401981_2_alg».proof.Proof.Gen.KernelIdeal.Launch
import proofs.«119081_j65481071401981_2_alg».proof.Proof.Gen.KernelIdeal.Points
import proofs.«119081_j65481071401981_2_alg».proof.Proof.Gen.KernelIdeal.Frame
import proofs.«119081_j65481071401981_2_alg».proof.Proof.Gen.KernelIdeal.Value
import proofs.«119081_j65481071401981_2_alg».proof.Proof.Gen.ReferenceIdeal
import proofs.«119081_j65481071401981_2_alg».proof.Proof.Gen.ReferenceIdeal.Run
import proofs.«119081_j65481071401981_2_alg».proof.Proof.Gen.ReferenceIdeal.Read
import proofs.«119081_j65481071401981_2_alg».proof.Proof.Gen.Pre_finite_inputs
import proofs.«119081_j65481071401981_2_alg».proof.Proof.ArrayValue
import proofs.«119081_j65481071401981_2_alg».proof.Proof.RefValue
import Idealize.ShloMosaic.Adequacy
import Idealize.ShloMosaic.Init

noncomputable section

namespace Cert.Proof

open Idealize.ShloMosaic Idealize.ShloMosaic.TcCoe Idealize.SL.Sem

/-- The column of squared norms is one array in both programs: each sums the rows of the entrywise square from zero and keeps
    the sums as a 16384 × 1 column. -/
theorem column_same (x : FVec Ideal ⟨2, ![16384, 512]⟩ .f32) :
    Cert.ReferenceIdeal.Read.val_main_v2 (F := Ideal) x = Cert.KernelIdeal.Entry.normColumn x := rfl

/-- The row of squared norms likewise: a 1 × 1024 row of the sums over the rows of the centres' entrywise square. -/
theorem row_same (y : FVec Ideal ⟨2, ![1024, 512]⟩ .f32) :
    Cert.ReferenceIdeal.Read.val_main_v5 (F := Ideal) y = Cert.KernelIdeal.Entry.normRow y := rfl

theorem frame_kernel : Cert.frame_Kernel := fun m ρ _ => Cert.Kernel.Gen.frame m ρ

theorem frame_kernel_ideal : Cert.frame_KernelIdeal := fun m ρ _ => Cert.KernelIdeal.Gen.frame m ρ

/-- The reference is a sequence of whole-array operations: it runs to the end and writes neither argument. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the points and the centres, both programs end with the Gaussian of the expanded squared
    distance in their result arrays. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.Dist.result_eq, (hagree c).1, (hagree c).2,
    column_same, row_same]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
